-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x4096 : Shape := ⟨3, ![16, 2048, 4096]⟩
abbrev S64x4096 : Shape := ⟨2, ![64, 4096]⟩
abbrev S64 : Shape := ⟨1, ![64]⟩
abbrev S_ : Shape := ⟨0, ![]⟩

class Facts : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x2048x4096 .f32) (main_arg1 : FVec F S64x4096 .f32) (main_arg2 : FVec F S64 .f32) : IVec S_ 1 :=
  let main_v0 : FVec F S16x2048x4096 .f32 := Host.absf main_arg0
  let main_cst : FVec F S_ .f32 := constant S_ .f32 0x7F800000#32
  let main_v1 : FVec F S16x2048x4096 .f32 := broadcastInDim S16x2048x4096 ![] bcast_S_S16x2048x4096 main_cst
  let main_v2 : IVec S16x2048x4096 1 := cmpf .olt main_v0 main_v1
  let main_c : IVec S_ 1 := constantI S_ 1 1#1
  let main_v3 : IVec S_ 1 := (fun x v => Host.reduce IntOp.andi x v reducesTo_S16x2048x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x2048x4096 : Shape := ⟨3, ![16, 2048, 4096]⟩
abbrev S64x4096 : Shape := ⟨2, ![64, 4096]⟩
abbrev S64 : Shape := ⟨1, ![64]⟩
abbrev S32768x4096 : Shape := ⟨2, ![32768, 4096]⟩
abbrev S4096x64 : Shape := ⟨2, ![4096, 64]⟩
abbrev S1x64 : Shape := ⟨2, ![1, 64]⟩
abbrev S32768x64 : Shape := ⟨2, ![32768, 64]⟩
abbrev S1024x4096 : Shape := ⟨2, ![1024, 4096]⟩
abbrev S1024x64 : Shape := ⟨2, ![1024, 64]⟩
abbrev S16x2048x64 : Shape := ⟨3, ![16, 2048, 64]⟩

abbrev nBuf : Space → Nat
  | .hbm => 8
  | .vmem => 6
  | .smem => 0
  | _ => 0

abbrev bufTy : (tb : Table) → Fin (tcTables nBuf tb) → BufTy
  | .hbm, ⟨0, _⟩ => ⟨S16x2048x4096, .f32⟩
  | .hbm, ⟨1, _⟩ => ⟨S64x4096, .f32⟩
  | .hbm, ⟨2, _⟩ => ⟨S64, .f32⟩
  | .hbm, ⟨3, _⟩ => ⟨S32768x4096, .f32⟩
  | .hbm, ⟨4, _⟩ => ⟨S4096x64, .f32⟩
  | .hbm, ⟨5, _⟩ => ⟨S1x64, .f32⟩
  | .hbm, ⟨6, _⟩ => ⟨S32768x64, .f32⟩
  | .hbm, ⟨7, _⟩ => ⟨S16x2048x64, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x4096_S32768x4096 : S16x2048x4096.ShapeCasts S32768x4096
  transposes_S64x4096_S4096x64_1_0 : S64x4096.Transposes [1, 0] S4096x64
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S32768x64_S16x2048x64 : S32768x64.ShapeCasts S16x2048x64
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x4096 : Shape := ⟨3, ![16, 2048, 4096]⟩
abbrev S64x4096 : Shape := ⟨2, ![64, 4096]⟩
abbrev S64 : Shape := ⟨1, ![64]⟩
abbrev S16x2048x64 : Shape := ⟨3, ![16, 2048, 64]⟩
abbrev S1x1x64 : Shape := ⟨3, ![1, 1, 64]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S64x4096, .f32⟩
  | .hbm, ⟨2, _⟩ => ⟨S64, .f32⟩
  | .hbm, ⟨3, _⟩ => ⟨S16x2048x64, .f32⟩
  | .hbm, ⟨4, _⟩ => ⟨S1x1x64, .f32⟩
  | .hbm, ⟨5, _⟩ => ⟨S16x2048x64, .f32⟩
  | .hbm, ⟨6, _⟩ => ⟨S16x2048x64, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  dot_S16x2048x4096_S64x4096_S16x2048x64_2_1_01_0_n_n_wf : DotDims.WF S16x2048x4096 S64x4096 S16x2048x64 [2] [1] [0, 1] [0] [] []

variable [Facts₀]

def dot_S16x2048x4096_S64x4096_S16x2048x64_2_1_01_0_n_n : DotDims S16x2048x4096 S64x4096 S16x2048x64 where
  lhsContracting := [2]
  rhsContracting := [1]
  lhsNonContracting := [0, 1]
  rhsNonContracting := [0]
  lhsBatch := []
  rhsBatch := []
  wf := dot_S16x2048x4096_S64x4096_S16x2048x64_2_1_01_0_n_n_wf

class Facts : Prop extends Facts₀ where

variable [Facts]
-- ==== Proof.Affine.lean ====
/-
  The affine map of a batch of sequences, on the extended reals.

  For an input `x` of 16 sequences of 2048 rows of 4096 features, a weight matrix `w` with 64 rows of 4096 features
  and a bias vector `b` of 64 entries, the result at sequence `a`, row `s` and output feature `n` is

      (∑ₖ x(a, s, k) · w(n, k)) + b(n),

  the row `x(a, s, ·)` against row `n` of the weights, plus the bias. Written a second time on the flattened rows:
  with the 16·2048 rows of `x` stacked into one matrix `X`, the weights transposed to `Wt` (4096 by 64) and the bias as a
  one-row matrix `B`, entry `(p, n)` is `(∑ₖ X(p, k) · Wt(k, n)) + B(0, n)`. Both are plain finite sums of products on the
  extended reals, in the same order of the factors; nothing is rearranged, so no finiteness of the entries is used.
-/
import Idealize.ShloMosaic.Lib.ValueIdx
import Idealize.ShloMosaic.PureOps.Ideal

noncomputable section

open scoped BigOperators

namespace Cert.Affine

open Idealize.ShloMosaic Idealize.ShloMosaic.ValueIdx

/-- `x · wᵀ + b`, entry by entry: at `(a, s, n)` the sum over the 4096 features of `x(a, s, k) · w(n, k)`, plus `b(n)`. -/
def affine (x : FVec Ideal ⟨3, ![16, 2048, 4096]⟩ .f32) (w : FVec Ideal ⟨2, ![64, 4096]⟩ .f32) (b : FVec Ideal ⟨1, ![64]⟩ .f32) :
    FVec Ideal ⟨3, ![16, 2048, 64]⟩ .f32 :=
  fun i => (∑ k : Fin 4096, x (ix3 (i 0) (i 1) k) * w (ix2 (i 2) k)) + b (ix1 (i 2))

/-- The same map on the stacked rows: at `(p, n)` the sum over the features of `X(p, k) · Wt(k, n)`, plus `B(0, n)`. -/
def affineRows (X : FVec Ideal ⟨2, ![32768, 4096]⟩ .f32) (Wt : FVec Ideal ⟨2, ![4096, 64]⟩ .f32) (B : FVec Ideal ⟨2, ![1, 64]⟩ .f32) :
    FVec Ideal ⟨2, ![32768, 64]⟩ .f32 :=
  fun j => (∑ k : Fin 4096, X (ix2 (j 0) k) * Wt (ix2 k (j 1))) + B (ix2 (0 : Fin 1) (j 1))

/-- Stacked row `a·2048 + s` of the rows' map is row `s` of sequence `a` of the batch's map, whenever the stacked operands
    are the batch's: `X(a·2048 + s, k) = x(a, s, k)`, `Wt(k, n) = w(n, k)`, `B(0, n) = b(n)`. -/
theorem affineRows_eq_affine (x : FVec Ideal ⟨3, ![16, 2048, 4096]⟩ .f32) (w : FVec Ideal ⟨2, ![64, 4096]⟩ .f32)
    (b : FVec Ideal ⟨1, ![64]⟩ .f32) (X : FVec Ideal ⟨2, ![32768, 4096]⟩ .f32) (Wt : FVec Ideal ⟨2, ![4096, 64]⟩ .f32)
    (B : FVec Ideal ⟨2, ![1, 64]⟩ .f32)
    (hX : ∀ (a : Fin 16) (s : Fin 2048) (k : Fin 4096) (p : Fin 32768), p.val = a.val * 2048 + s.val → X (ix2 p k) = x (ix3 a s k))
    (hW : ∀ (k : Fin 4096) (n : Fin 64), Wt (ix2 k n) = w (ix2 n k))
    (hB : ∀ n : Fin 64, B (ix2 (0 : Fin 1) n) = b (ix1 n))
    (a : Fin 16) (s : Fin 2048) (n : Fin 64) (p : Fin 32768) (hp : p.val = a.val * 2048 + s.val) :
    affineRows X Wt B (ix2 p n) = affine x w b (ix3 a s n) := by
  show (∑ k : Fin 4096, X (ix2 p k) * Wt (ix2 k n)) + B (ix2 (0 : Fin 1) n)
      = (∑ k : Fin 4096, x (ix3 a s k) * w (ix2 n k)) + b (ix1 n)
  rw [hB n]
  exact congrArg (· + b (ix1 n)) (Finset.sum_congr rfl fun k _ => by rw [hX a s k p hp, hW k n])

end Cert.Affine

end
-- ==== Proof.RefLinear.lean ====
/-
  The reference computes the affine map.

  Its four host operations, read one at a time at an index `(a, s, n)`: the contraction of `x`'s last axis with `w`'s
  last axis is `∑ₖ x(a, s, k) · w(n, k)`; the bias is laid along the last axis of a one-by-one-by-64 array and spread over the
  batch and the rows, so its entry at `(a, s, n)` is `b(n)`; the last operation adds the two.
-/
import proofs.«118233_j65558380806418_2_alg».proof.Proof.Gen.ReferenceIdeal.Read
import proofs.«118233_j65558380806418_2_alg».proof.Proof.Affine

noncomputable section

open scoped BigOperators

namespace Cert.Affine.Reference

open Idealize.ShloMosaic Idealize.ShloMosaic.ValueIdx Cert.ReferenceIdeal Cert.ReferenceIdeal.Read

/-- The reference's result, as a function of its three arguments, is `x · wᵀ + b`. -/
theorem result_eq (x : FVec Ideal S16x2048x4096 .f32) (w : FVec Ideal S64x4096 .f32) (b : FVec Ideal S64 .f32) :
    val_main_v3 (F := Ideal) x w b = affine x w b := by
  funext i
  have el : ∀ k : Fin 4096, lidx_main_v0 i k = ix3 (i 0) (i 1) k := fun k => funext fun a => Fin.ext (by
    match a with
    | ⟨0, _⟩ => rfl
    | ⟨1, _⟩ => rfl
    | ⟨2, _⟩ => rfl)
  have er : ∀ k : Fin 4096, ridx_main_v0 i k = ix2 (i 2) k := fun k => funext fun a => Fin.ext (by
    match a with
    | ⟨0, _⟩ => rfl
    | ⟨1, _⟩ => rfl)
  have eb : idx_main_v1 (idx_main_v2 i) = ix1 (i 2) := funext fun a => Fin.ext (by
    match a with
    | ⟨0, _⟩ => rfl)
  rw [val_main_v3_apply, val_main_v0_apply, val_main_v2_apply, val_main_v1_apply]
  simp only [el, er, eb, Ideal.addf_def]
  rfl

end Cert.Affine.Reference

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.BlockProduct.lean ====
/-
  What the kernel body stores, entry by entry.

  At one grid point the body loads a block of 1024 stacked rows (1024 by 4096), the whole transposed weight matrix
  (4096 by 64) and the one-row bias (1 by 64), multiplies the first two into a zero accumulator, spreads the bias row over
  the 1024 rows and adds. Entry `(p, q)` of what it stores is therefore

      (∑ₖ rows(p, k) · weights(k, q)) + bias(0, q).

  The product's dimension numbers are those of a plain matrix product (contract the left operand's second axis with the
  right operand's first, no batch axis), so its entry is the plain sum over the contracted coordinate.
-/
import proofs.«118233_j65558380806418_2_alg».proof.Proof.Gen.KernelIdeal.Skeleton
import proofs.«118233_j65558380806418_2_alg».proof.Proof.LibPlainDot
import Idealize.ShloMosaic.Lib.Pipeline.Value
import Idealize.ShloMosaic.Lib.ValueLayout

noncomputable section

open scoped BigOperators

namespace Cert.Affine.Block

open Idealize.ShloMosaic Idealize.ShloMosaic.ValueIdx Cert.KernelIdeal Cert.KernelIdeal.Gen

/-- The body's dimension numbers are the plain matrix product's. -/
theorem dims_plain : dot_S1024x4096_S4096x64_S1024x64_1_0_0_1_n_n = DotDims.plain 1024 4096 64 := rfl

/-- The stored value at row `p` of the block and output feature `q`: that row against column `q` of the transposed
    weights, plus the bias row's entry `q`. -/
theorem stored_apply (x0 : Vec Ideal S1024x4096 .f32) (x1 : Vec Ideal S4096x64 .f32) (x2 : Vec Ideal S1x64 .f32)
    (p : Fin 1024) (q : Fin 64) :
    k0_pay1 (F := Ideal) x0 x1 x2 (ix2 p q) = (∑ k : Fin 4096, x0 (ix2 p k) * x1 (ix2 k q)) + x2 (ix2 (0 : Fin 1) q) := by
  unfold k0_pay1
  rw [addf_apply, shapeCast_self, shapeCast_self, shapeCast_self, dims_plain, broadcastTo_1b_ab_apply]
  exact congrArg (· + x2 (ix2 (0 : Fin 1) q)) (Cert.Lib.PlainDot.matmul_zero_apply (some .fp32) x0 x1 p q)

end Cert.Affine.Block

end
-- ==== Proof.RegionArray.lean ====
/-
  The array the region leaves: the rows' affine map of the three arrays it was launched on.

  The grid has 32 points; point `t` is given rows `1024·t … 1024·t + 1023` of the stacked rows, the whole transposed
  weights and the whole bias row, and writes back rows `1024·t … 1024·t + 1023` of the result. What it writes at row
  `p` of its block and column `q` is that row of the stacked rows against column `q` of the weights plus the bias
  entry `q` — entry `(1024·t + p, q)` of the rows' affine map. The 32 blocks of 1024 rows tile the 32768 rows, so every
  entry of the result array is written by the point that owns its row, `row / 1024`.
-/
import proofs.«118233_j65558380806418_2_alg».proof.Proof.Gen.KernelIdeal.Frame
import proofs.«118233_j65558380806418_2_alg».proof.Proof.Affine
import proofs.«118233_j65558380806418_2_alg».proof.Proof.BlockProduct
import Idealize.ShloMosaic.Lib.Pipeline.Value

noncomputable section

open scoped BigOperators

namespace Cert.Affine.Region

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem offsets_zero : (![0, 0] : Fin 2 → Nat) = fun _ => 0 := funext fun a => by fin_cases a <;> rfl

/-- The index maps over the grid: the rows' window and the result's window sit at block `t` along the rows and block 0
    along the columns; the weights' and the bias's windows are their whole arrays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `y₀`, feature `y₁` of point `t`'s block of stacked rows is the stacked rows' `(1024·t + y₀, y₁)`. -/
theorem rows_block (c : Dev nD) (t : Fin cfg0.N) (y : S1024x4096.Idx) (i : S32768x4096.Idx)
    (h0 : (i 0).val = t.val * 1024 + (y 0).val) (h1 : (i 1).val = (y 1).val) :
    (iblk m c 0 t : Vec Ideal S1024x4096 .f32) y = (V m c main_v0 : S32768x4096.Idx → EReal) i := by
  obtain ⟨e0, e1, -⟩ := block_indices t
  show V m c main_v0 (((cfg0.win 0).blk t).view.emb y) = V m c main_v0 i
  refine congrArg (V m c main_v0) (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 4096 + 1 * (y 1).val = (i 1).val; rw [e1, h1]; omega

/-- Every point's block of the weights is the whole transposed weight matrix. -/
theorem weights_block (c : Dev nD) (t : Fin cfg0.N) (y : S4096x64.Idx) :
    (iblk m c 1 t : Vec Ideal S4096x64 .f32) y = (V m c main_v1 : S4096x64.Idx → EReal) y := by
  obtain ⟨-, -, e0, e1, -⟩ := block_indices t
  show V m c main_v1 (((cfg0.win 1).blk t).view.emb y) = V m c main_v1 y
  refine congrArg (V m c main_v1) (funext fun a => Fin.ext ?_)
  match a with
  | ⟨0, _⟩ => show win0_1.index t (0 : Fin 2) * 4096 + 1 * (y 0).val = (y 0).val; rw [e0]; omega
  | ⟨1, _⟩ => show win0_1.index t (1 : Fin 2) * 64 + 1 * (y 1).val = (y 1).val; rw [e1]; omega

/-- Every point's block of the bias is the whole bias row. -/
theorem bias_block (c : Dev nD) (t : Fin cfg0.N) (y : S1x64.Idx) :
    (iblk m c 2 t : Vec Ideal S1x64 .f32) y = (V m c main_v2 : S1x64.Idx → EReal) y := by
  obtain ⟨-, -, -, -, e0, e1, -⟩ := block_indices t
  show V m c main_v2 (((cfg0.win 2).blk t).view.emb y) = V m c main_v2 y
  refine congrArg (V m c main_v2) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- What a block of 1024 rows stores at `(p, q)` is the rows' affine map at `(1024·r + p, q)`, when the block's rows are rows
    `1024·r …` of `X` and its weights and bias are the whole `Wt` and `B`. -/
theorem stored_eq_affineRows (x0 : Vec Ideal S1024x4096 .f32) (x1 : Vec Ideal S4096x64 .f32) (x2 : Vec Ideal S1x64 .f32)
    (X : FVec Ideal ⟨2, ![32768, 4096]⟩ .f32) (Wt : FVec Ideal ⟨2, ![4096, 64]⟩ .f32) (B : FVec Ideal ⟨2, ![1, 64]⟩ .f32)
    (p : Fin 1024) (q : Fin 64) (P : Fin 32768)
    (hx0 : ∀ k : Fin 4096, x0 (ix2 p k) = X (ix2 P k)) (hx1 : ∀ k : Fin 4096, x1 (ix2 k q) = Wt (ix2 k q))
    (hx2 : x2 (ix2 (0 : Fin 1) q) = B (ix2 (0 : Fin 1) q)) :
    k0_pay1 (F := Ideal) x0 x1 x2 (ix2 p q) = Cert.Affine.affineRows X Wt B (ix2 P q) := by
  rw [Cert.Affine.Block.stored_apply, hx2]
  exact congrArg (· + B (ix2 (0 : Fin 1) q)) (Finset.sum_congr rfl fun k _ => by rw [hx0 k, hx1 k])

/-- WHAT POINT `t` WRITES BACK is block `t` of the rows' affine map of the three arrays as the region finds them. -/
theorem flushed_eq (c : Dev nD) (t : Fin cfg0.N) :
    (dats m 0 c).flushed 3 t = ((cfg0.win 3).blk t).view.read (Elt Ideal)
      (Cert.Affine.affineRows (V m c main_v0) (V m c main_v1) (V m c main_v2)) := by
  show (cfg0.win 3).cut (grid0.coords t) ((dats m 0 c).after 3 t) = _
  rw [after0_3]
  unfold out0_3
  rw [View.canon_unit_zero offsets_zero]
  simp only [View.ld_unit_zero (S := S1024x4096) offsets_zero, View.ld_unit_zero (S := S4096x64) offsets_zero,
    View.ld_unit_zero (S := S1x64) offsets_zero]
  obtain ⟨-, -, -, -, -, -, e0, e1⟩ := block_indices t
  have hN : cfg0.N = 32 := N_0
  have ht : t.val < 32 := hN ▸ t.isLt
  funext j
  obtain ⟨p, q, rfl⟩ : ∃ (p : Fin 1024) (q : Fin 64), j = ix2 p q := ⟨j 0, j 1, eq_ix2 j⟩
  show k0_pay1 (F := Ideal) (iblk m c 0 t) (iblk m c 1 t) (iblk m c 2 t) (ix2 p q)
    = Cert.Affine.affineRows (V m c main_v0) (V m c main_v1) (V m c main_v2) (((cfg0.win 3).blk t).view.emb (ix2 p q))
  have hi : ((cfg0.win 3).blk t).view.emb (ix2 p q) = ix2 (⟨t.val * 1024 + p.val, by omega⟩ : Fin 32768) q := by
    funext a; apply Fin.ext
    match a with
    | ⟨0, _⟩ => show win0_3.index t (0 : Fin 2) * 1024 + 1 * p.val = t.val * 1024 + p.val; rw [e0]; omega
    | ⟨1, _⟩ => show win0_3.index t (1 : Fin 2) * 64 + 1 * q.val = q.val; rw [e1]; omega
  rw [hi]
  exact stored_eq_affineRows _ _ _ _ _ _ p q _
    (fun k => rows_block m c t (ix2 p k) (ix2 _ k) rfl rfl)
    (fun k => weights_block m c t (ix2 k q))
    (bias_block m c t (ix2 (0 : Fin 1) q))

/-- An index of the result array is in point `t`'s block iff each coordinate is in the block's range on its axis. -/
theorem mem_block (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v3).slice (win0_3.rect t)).set ↔ _
  rw [View.set_slice_whole, Rect.mem_set_unit]
  exact Iff.rfl

/-- Every row of the result is in the block of the point that owns it, `row / 1024`. -/
theorem covered (i : S32768x64.Idx) : ∃ t : Fin cfg0.N, (cfg0.win 3).flush t = true ∧ i ∈ ((cfg0.win 3).blk t).view.set := by
  have hN : cfg0.N = 32 := N_0
  have hi0 : (i 0).val < 32768 := (i 0).isLt
  have hi1 : (i 1).val < 64 := (i 1).isLt
  let t : Fin cfg0.N := ⟨(i 0).val / 1024, by rw [hN]; omega⟩
  have htv : t.val = (i 0).val / 1024 := rfl
  obtain ⟨-, -, -, -, -, -, e0, e1⟩ := block_indices t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 64 ≤ (i 1).val ∧ (i 1).val < win0_3.index t (1 : Fin 2) * 64 + 64; rw [e1]; omega

/-- THE RESULT ARRAY after the region: the rows' affine map of the stacked rows, the transposed weights and the bias row. -/
theorem final (c : Dev nD) : (dats m 0 c).arrAt 3 cfg0.N
    = Cert.Affine.affineRows (V m c main_v0) (V m c main_v1) (V m c main_v2) :=
  (dats m 0 c).arrAt_eq_of_cover 3 _ (fun t _ => flushed_eq m c t) covered

end Cert.Affine.Region

end
-- ==== Proof.LibRank3Layout.lean ====
/-
  Rank-3 layout operations read at coordinates: what a body that spreads two matrices and a vector over a
  three-axis block, and flattens that block's two leading axes into the rows of a matrix product, needs.

  * an [a, c] matrix given a unit middle axis, [a, 1, c], and spread along it to [a, b, c]: entry (i, j, k) is the
    matrix's (i, k);
  * a [b, c] matrix given a unit leading axis, [1, b, c] (the library's `shapeCast_ab_1ab_apply`), and spread along it
    to [a, b, c]: entry (i, j, k) is the matrix's (j, k);
  * a vector [c] given two unit leading axes, [1, 1, c], and spread to [a, b, c]: entry (i, j, k) is the vector's k;
  * an [a, b, c] block read as the matrix [a·b, c] and back: row `i·b + j` of the matrix is the block's (i, j).

  All are general in the extents; the flattened row count is any `m` with the row given as `p = i·b + j`.
-/
import Idealize.ShloMosaic.Lib.ValueIdx
import Idealize.ShloMosaic.Lib.Pipeline.Value

namespace Idealize.ShloMosaic.ValueRank3

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A vector `[c]` cast to `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, c]` block cast to a matrix `[m, c]` reads, at row `p = i·b + j` and column `k`, the block at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- A matrix `[m, c]` cast to an `[a, b, c]` block reads, at `(i, j, k)`, the matrix at row `p = i·b + j`, column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (p : Fin m)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueRank3
-- ==== Proof.Staged.lean ====
/-
  The three arrays the kernel's region is launched on, entry by entry.

  Before the region the host stacks the 16 sequences of 2048 rows into one matrix of 32768 rows (row `a·2048 + s` is row
  `s` of sequence `a`), transposes the weights (entry `(k, n)` is the weights' `(n, k)`) and lays the bias out as a
  one-row matrix (entry `(0, n)` is the bias's `n`). Read off the host lines themselves.
-/
import proofs.«118233_j65558380806418_2_alg».proof.Proof.Gen.KernelIdeal.Frame
import proofs.«118233_j65558380806418_2_alg».proof.Proof.LibRank3Layout
import Idealize.ShloMosaic.Lib.StableHlo.Run
import Idealize.ShloMosaic.Lib.ValueLayout

noncomputable section

namespace Cert.Affine.Staged

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The stacked rows: row `p = a·2048 + s`, feature `k`, is the input's `(a, s, k)`. -/
theorem rows_apply (c : Dev nD) (a : Fin 16) (s : Fin 2048) (k : Fin 4096) (p : Fin 32768) (hp : p.val = a.val * 2048 + s.val) :
    (V m c main_v0 : S32768x4096.Idx → EReal) (ix2 p k)
      = (m ((c : Thread nD τ).loc main_arg0) : S16x2048x4096.Idx → EReal) (ix3 a s k) := by
  have e : (V m c main_v0 : S32768x4096.Idx → EReal)
      = shapeCast S32768x4096 (m ((c : Thread nD τ).loc main_arg0) : S16x2048x4096.Idx → EReal) Facts₀.shapeCasts_S16x2048x4096_S32768x4096 := by
    show StableHlo.after hostOps0 (fun b => m (c, b)) (Proc.devRef .tc main_v0) = _
    after_results
    rfl
  rw [e]
  exact Idealize.ShloMosaic.ValueRank3.shapeCast_abc_mc_apply _ _ a s k p hp

/-- The transposed weights: entry `(k, n)` is the weights' `(n, k)`. -/
theorem weights_apply (c : Dev nD) (k : Fin 4096) (n : Fin 64) :
    (V m c main_v1 : S4096x64.Idx → EReal) (ix2 k n)
      = (m ((c : Thread nD τ).loc main_arg1) : S64x4096.Idx → EReal) (ix2 n k) := by
  have e : (V m c main_v1 : S4096x64.Idx → EReal)
      = transpose S4096x64 [1, 0] (m ((c : Thread nD τ).loc main_arg1) : S64x4096.Idx → EReal) Facts₀.transposes_S64x4096_S4096x64_1_0 := by
    show StableHlo.after hostOps0 (fun b => m (c, b)) (Proc.devRef .tc main_v1) = _
    after_results
  rw [e]
  exact transpose_ix2_apply _ _ k n

/-- The bias as a one-row matrix: entry `(0, n)` is the bias's `n`. -/
theorem bias_apply (c : Dev nD) (n : Fin 64) :
    (V m c main_v2 : S1x64.Idx → EReal) (ix2 (0 : Fin 1) n)
      = (m ((c : Thread nD τ).loc main_arg2) : S64.Idx → EReal) (ix1 n) := by
  have e : (V m c main_v2 : S1x64.Idx → EReal)
      = shapeCast S1x64 (m ((c : Thread nD τ).loc main_arg2) : S64.Idx → EReal) Facts₀.shapeCasts_S64_S1x64 := by
    show StableHlo.after hostOps0 (fun b => m (c, b)) (Proc.devRef .tc main_v2) = _
    after_results
    rfl
  rw [e]
  exact shapeCast_a_1a_apply _ _ (0 : Fin 1) n

end Cert.Affine.Staged

end
-- ==== Proof.KernelResult.lean ====
/-
  The kernel program computes the affine map.

  After the region the host reads the result's 32768 rows back as 16 sequences of 2048 rows: entry `(a, s, n)` is the
  region's `(a·2048 + s, n)`, which is the rows' affine map of the stacked rows, the transposed weights and the bias row
  at that row — and stacked row `a·2048 + s` is row `s` of sequence `a`, the transposed weights' `(k, n)` is the weights'
  `(n, k)`, the bias row's `(0, n)` is the bias's `n`. So the entry is `(∑ₖ x(a, s, k) · w(n, k)) + b(n)`.
-/
import proofs.«118233_j65558380806418_2_alg».proof.Proof.RegionArray
import proofs.«118233_j65558380806418_2_alg».proof.Proof.Staged
import proofs.«118233_j65558380806418_2_alg».proof.Proof.LibRank3Layout
import Idealize.ShloMosaic.Lib.StableHlo.Run

noncomputable section

namespace Cert.Affine.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- What the host line after the region leaves in the program's result: `x · wᵀ + b` of the three arguments. -/
theorem result_eq (c : Dev nD) :
    (Pipeline.afterTail₀ cfgs (dats m) 0 (V0 m) [hostOps1] c main_v4 : S16x2048x64.Idx → EReal)
      = Cert.Affine.affine (m ((c : Thread nD τ).loc main_arg0)) (m ((c : Thread nD τ).loc main_arg1))
          (m ((c : Thread nD τ).loc main_arg2)) := by
  have e : (Pipeline.afterTail₀ cfgs (dats m) 0 (V0 m) [hostOps1] c main_v4 : S16x2048x64.Idx → EReal)
      = shapeCast S16x2048x64 (Cert.Affine.affineRows (V m c main_v0) (V m c main_v1) (V m c main_v2))
          Facts₀.shapeCasts_S32768x64_S16x2048x64 := by
    unfold Pipeline.afterTail₀
    show StableHlo.after hostOps1 _ (Proc.devRef .tc main_v4) = _
    after_results
    have hw : Pipeline.withArrays spec0 c (V0 m c) (fun w => (dats m 0 c).arrAt w cfg0.N) (Proc.devRef .tc main_v3)
        = Cert.Affine.affineRows (V m c main_v0) (V m c main_v1) (V m c main_v2) :=
      (Pipeline.withArrays_arr spec0 launch0.win.arr_inj c _ _ 3).trans (Cert.Affine.Region.final m c)
    rw [hw]
    rfl
  rw [e]
  funext i
  obtain ⟨a, s, n, rfl⟩ : ∃ (a : Fin 16) (s : Fin 2048) (n : Fin 64), i = ix3 a s n := ⟨i 0, i 1, i 2, eq_ix3 i⟩
  have hp : a.val * 2048 + s.val < 32768 := by omega
  rw [Idealize.ShloMosaic.ValueRank3.shapeCast_mc_abc_apply _ _ a s n ⟨a.val * 2048 + s.val, hp⟩ rfl]
  exact Cert.Affine.affineRows_eq_affine _ _ _ _ _ _
    (fun a' s' k p h => Cert.Affine.Staged.rows_apply m c a' s' k p h)
    (fun k n' => Cert.Affine.Staged.weights_apply m c k n')
    (fun n' => Cert.Affine.Staged.bias_apply m c n')
    a s n ⟨a.val * 2048 + s.val, hp⟩ rfl

/-- The kernel program's run, read: every weakly fair execution terminates with the result at `x · wᵀ + b` of the
    arguments, and the arguments as they were. -/
theorem run : θ_run defs (onTc (τ := τ) (main (F := Ideal))) ⟨m, fun _ => 0, ρ⟩ fun r => ∀ c : Dev nD,
      r.2.mem ((c.tc : Thread nD τ).loc main_v4)
        = Cert.Affine.affine (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.Affine.Kernel

end
-- ==== Proof.lean ====
/-
  A linear layer over a batch of sequences: `x · wᵀ + b` for `x` of 16 sequences of 2048 rows of 4096 features, `w` with 64
  rows of 4096 features and `b` of 64 entries.

  The kernel's program stacks the 16·2048 rows into one matrix, transposes the weights, lays the bias out as one row,
  and runs a grid of 32 points: point `t` multiplies rows `1024·t … 1024·t + 1023` by the whole transposed weights into
  a zero accumulator and adds the bias row; the host then reads the 32768 result rows back as 16 sequences. The reference
  contracts `x`'s feature axis against `w`'s feature axis in one operation and adds the bias spread over batch and rows.

  On the extended reals both results are, at sequence `a`, row `s` and output feature `n`,

      (∑ₖ x(a, s, k) · w(n, k)) + b(n):

  the same finite sum of the same products in the same order of factors (the zero accumulator adds nothing, stacked row
  `a·2048 + s` is row `s` of sequence `a`, the transposed weights' `(k, n)` is `w(n, k)`). Nothing is distributed or
  cancelled, so the equality holds for every input, infinite entries included, and the finiteness of the inputs is not
  used. The ideal pass rewrote nothing, so the kernel's idealization is its own text read on the extended reals.

  The three programs' runs terminate with their arguments unchanged: for the two kernel programs by the generated
  run of the region between its host lines, for the reference by the generated run of its four host operations.
-/
import proofs.«118233_j65558380806418_2_alg».proof.Defs
import proofs.«118233_j65558380806418_2_alg».proof.Proof.Gen.Kernel
import proofs.«118233_j65558380806418_2_alg».proof.Proof.Gen.Kernel.Skeleton
import proofs.«118233_j65558380806418_2_alg».proof.Proof.Gen.Kernel.Launch
import proofs.«118233_j65558380806418_2_alg».proof.Proof.Gen.Kernel.Points
import proofs.«118233_j65558380806418_2_alg».proof.Proof.Gen.Kernel.Frame
import proofs.«118233_j65558380806418_2_alg».proof.Proof.Gen.KernelIdeal
import proofs.«118233_j65558380806418_2_alg».proof.Proof.Gen.KernelIdeal.Skeleton
import proofs.«118233_j65558380806418_2_alg».proof.Proof.Gen.KernelIdeal.Launch
import proofs.«118233_j65558380806418_2_alg».proof.Proof.Gen.KernelIdeal.Points
import proofs.«118233_j65558380806418_2_alg».proof.Proof.Gen.KernelIdeal.Frame
import proofs.«118233_j65558380806418_2_alg».proof.Proof.Gen.ReferenceIdeal
import proofs.«118233_j65558380806418_2_alg».proof.Proof.Gen.ReferenceIdeal.Run
import proofs.«118233_j65558380806418_2_alg».proof.Proof.Gen.ReferenceIdeal.Read
import proofs.«118233_j65558380806418_2_alg».proof.Proof.Gen.Pre_finite_inputs
import proofs.«118233_j65558380806418_2_alg».proof.Proof.RefLinear
import proofs.«118233_j65558380806418_2_alg».proof.Proof.KernelResult
import Idealize.ShloMosaic.Adequacy
import Idealize.ShloMosaic.Init

noncomputable section

namespace Cert.Proof

open Idealize.ShloMosaic Idealize.SL.Sem

/-- The kernel program, read word by word, terminates with its arguments unchanged. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The reference's four host operations terminate with its arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals, from memories that agree on the three arguments, the kernel program and the reference both
    end with `x · wᵀ + b` in their result. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Affine.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Affine.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
